-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000x50176 : Shape := ⟨2, ![1000, 50176]⟩
abbrev S50176x1024 : Shape := ⟨2, ![50176, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S_ : Shape := ⟨0, ![]⟩

class Facts : Prop where
  bcast_S_S1000x50176 : S_.BroadcastsInDim S1000x50176 (![] : Fin 0 → Fin S1000x50176.rank)
  reducesTo_S1000x50176_S_d0_1 : S1000x50176.ReducesTo [0, 1] S_
  h_S_ : 0 < S_.numel
  bcast_S_S50176x1024 : S_.BroadcastsInDim S50176x1024 (![] : Fin 0 → Fin S50176x1024.rank)
  reducesTo_S50176x1024_S_d0_1 : S50176x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x12 : S_.BroadcastsInDim S1024x12 (![] : Fin 0 → Fin S1024x12.rank)
  reducesTo_S1024x12_S_d0_1 : S1024x12.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg7 : FVec F S1024x12 .f32) (main_arg8 : FVec F S12 .f32) (main_v33 : IVec S_ 1) : IVec S_ 1 :=
  let main_v34 : FVec F S1024x12 .f32 := Host.absf main_arg7
  let main_cst_12 : FVec F S_ .f32 := constant S_ .f32 0x7F800000#32
  let main_v35 : FVec F S1024x12 .f32 := broadcastInDim S1024x12 ![] bcast_S_S1024x12 main_cst_12
  let main_v36 : IVec S1024x12 1 := cmpf .olt main_v34 main_v35
  let main_c_13 : IVec S_ 1 := constantI S_ 1 1#1
  let main_v37 : IVec S_ 1 := (fun x v => Host.reduce IntOp.andi x v reducesTo_S1024x12_S_d0_1 h_S_) main_v36 main_c_13
  let main_v38 : IVec S_ 1 := andi main_v33 main_v37
  let main_v39 : FVec F S12 .f32 := Host.absf main_arg8
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  main_v43

def fn_part1 {F : FTy → Type} [FloatOps F] (main_arg4 : FVec F S1024 .f32) (main_arg5 : FVec F S1024x4 .f32) (main_arg6 : FVec F S4 .f32) (main_arg7 : FVec F S1024x12 .f32) (main_arg8 : FVec F S12 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x4 .f32 := Host.absf main_arg5
  let main_cst_8 : FVec F S_ .f32 := constant S_ .f32 0x7F800000#32
  let main_v25 : FVec F S1024x4 .f32 := broadcastInDim S1024x4 ![] bcast_S_S1024x4 main_cst_8
  let main_v26 : IVec S1024x4 1 := cmpf .olt main_v24 main_v25
  let main_c_9 : IVec S_ 1 := constantI S_ 1 1#1
  let main_v27 : IVec S_ 1 := (fun x v => Host.reduce IntOp.andi x v reducesTo_S1024x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_v33

def fn {F : FTy → Type} [FloatOps F] (main_arg0 : FVec F S1000x50176 .f32) (main_arg1 : FVec F S50176x1024 .f32) (main_arg2 : FVec F S1024 .f32) (main_arg3 : FVec F S1024x1024 .f32) (main_arg4 : FVec F S1024 .f32) (main_arg5 : FVec F S1024x4 .f32) (main_arg6 : FVec F S4 .f32) (main_arg7 : FVec F S1024x12 .f32) (main_arg8 : FVec F S12 .f32) : IVec S_ 1 :=
  let main_v0 : FVec F S1000x50176 .f32 := Host.absf main_arg0
  let main_cst : FVec F S_ .f32 := constant S_ .f32 0x7F800000#32
  let main_v1 : FVec F S1000x50176 .f32 := broadcastInDim S1000x50176 ![] bcast_S_S1000x50176 main_cst
  let main_v2 : IVec S1000x50176 1 := cmpf .olt main_v0 main_v1
  let main_c : IVec S_ 1 := constantI S_ 1 1#1
  let main_v3 : IVec S_ 1 := (fun x v => Host.reduce IntOp.andi x v reducesTo_S1000x50176_S_d0_1 h_S_) main_v2 main_c
  let main_v4 : FVec F S50176x1024 .f32 := Host.absf main_arg1
  let main_cst_0 : FVec F S_ .f32 := constant S_ .f32 0x7F800000#32
  let main_v5 : FVec F S50176x1024 .f32 := broadcastInDim S50176x1024 ![] bcast_S_S50176x1024 main_cst_0
  let main_v6 : IVec S50176x1024 1 := cmpf .olt main_v4 main_v5
  let main_c_1 : IVec S_ 1 := constantI S_ 1 1#1
  let main_v7 : IVec S_ 1 := (fun x v => Host.reduce IntOp.andi x v reducesTo_S50176x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S1000x50176 : Shape := ⟨2, ![1000, 50176]⟩
abbrev S50176x1024 : Shape := ⟨2, ![50176, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S1024x16 : Shape := ⟨2, ![1024, 16]⟩
abbrev S_ : Shape := ⟨0, ![]⟩
abbrev S1024x128 : Shape := ⟨2, ![1024, 128]⟩
abbrev S16 : Shape := ⟨1, ![16]⟩
abbrev S128 : Shape := ⟨1, ![128]⟩
abbrev S1x128 : Shape := ⟨2, ![1, 128]⟩
abbrev S1x1024 : Shape := ⟨2, ![1, 1024]⟩
abbrev S1000x128 : Shape := ⟨2, ![1000, 128]⟩
abbrev S1000x1792 : Shape := ⟨2, ![1000, 1792]⟩
abbrev S1792x1024 : Shape := ⟨2, ![1792, 1024]⟩
abbrev S1000x1024 : Shape := ⟨2, ![1000, 1024]⟩
abbrev S1000x4 : Shape := ⟨2, ![1000, 4]⟩
abbrev S1000x12 : Shape := ⟨2, ![1000, 12]⟩

abbrev nBuf : Space → Nat
  | .hbm => 23
  | .vmem => 11
  | .smem => 0
  | _ => 0

abbrev bufTy : (tb : Table) → Fin (tcTables nBuf tb) → BufTy
  | .hbm, ⟨0, _⟩ => ⟨S1000x50176, .f32⟩
  | .hbm, ⟨1, _⟩ => ⟨S50176x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x12, .f32⟩
  | .hbm, ⟨8, _⟩ => ⟨S12, .f32⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S16, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S1x1024, .f32⟩
  | .hbm, ⟨19, _⟩ => ⟨S1x1024, .f32⟩
  | .hbm, ⟨20, _⟩ => ⟨S1000x128, .f32⟩
  | .hbm, ⟨21, _⟩ => ⟨S1000x4, .f32⟩
  | .hbm, ⟨22, _⟩ => ⟨S1000x12, .f32⟩
  | .local _ .vmem, ⟨0, _⟩ => ⟨S1000x1792, .f32⟩
  | .local _ .vmem, ⟨1, _⟩ => ⟨S1000x1792, .f32⟩
  | .local _ .vmem, ⟨2, _⟩ => ⟨S1792x1024, .f32⟩
  | .local _ .vmem, ⟨3, _⟩ => ⟨S1792x1024, .f32⟩
  | .local _ .vmem, ⟨4, _⟩ => ⟨S1x1024, .f32⟩
  | .local _ .vmem, ⟨5, _⟩ => ⟨S1024x1024, .f32⟩
  | .local _ .vmem, ⟨6, _⟩ => ⟨S1x1024, .f32⟩
  | .local _ .vmem, ⟨7, _⟩ => ⟨S1024x128, .f32⟩
  | .local _ .vmem, ⟨8, _⟩ => ⟨S1x128, .f32⟩
  | .local _ .vmem, ⟨9, _⟩ => ⟨S1000x128, .f32⟩
  | .local _ .vmem, ⟨10, _⟩ => ⟨S1000x1024, .f32⟩
  | _, _ => ⟨S1000x50176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![28], ![false]⟩

def k0_cond3 (i : grid0.Coords) : BitVec 1 :=
  let arg0 : BitVec 32 := BitVec.ofNat 32 (i 0).val
  let c27_i32 : BitVec 32 := 27#32
  let v9 : BitVec 1 := Scalar.cmpi .eq arg0 c27_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1792x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1000x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  concatenates_S1024x4_S1024x12_S1024x16_d1 : Shape.Concatenates [S1024x4, S1024x12] S1024x16 1
  pads_S1024x16_S1024x128_000_01120 : S1024x16.Pads (![0, 0] : Fin 2 → Nat) ![0, 112] ![0, 0] S1024x128
  h_S_ : 0 < S_.numel
  concatenates_S4_S12_S16_d0 : Shape.Concatenates [S4, S12] S16 0
  pads_S16_S128_01120 : S16.Pads (![0] : Fin 1 → Nat) ![112] ![0] S128
  shapeCasts_S128_S1x128 : S128.ShapeCasts S1x128
  shapeCasts_S1024_S1x1024 : S1024.ShapeCasts S1x1024
  inb_S1000x1792_S1000x1792_0_0 : ∀ a, (![0, 0] : Fin 2 → Nat) a + S1000x1792.size a ≤ S1000x1792.size a
  h_S1000x1792 : 0 < S1000x1792.numel
  inb_S1792x1024_S1792x1024_0_0 : ∀ a, (![0, 0] : Fin 2 → Nat) a + S1792x1024.size a ≤ S1792x1024.size a
  h_S1792x1024 : 0 < S1792x1024.numel
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1024x1024_S1024x1024_0_0 : ∀ a, (![0, 0] : Fin 2 → Nat) a + S1024x1024.size a ≤ S1024x1024.size a
  h_S1024x1024 : 0 < S1024x1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  slices_S1000x128_S1000x4_0_0 : S1000x128.Slices ![0, 0] S1000x4
  slices_S1000x128_S1000x12_0_4 : S1000x128.Slices ![0, 4] S1000x12
  dot_S1000x1792_S1792x1024_S1000x1024_1_0_0_1_n_n_wf : DotDims.WF S1000x1792 S1792x1024 S1000x1024 [1] [0] [0] [1] [] []
  dot_S1000x1024_S1024x1024_S1000x1024_1_0_0_1_n_n_wf : DotDims.WF S1000x1024 S1024x1024 S1000x1024 [1] [0] [0] [1] [] []
  dot_S1000x1024_S1024x128_S1000x128_1_0_0_1_n_n_wf : DotDims.WF S1000x1024 S1024x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1792.size a ≤ S1000x50176.size a
  hwx0_0 : ∀ i : grid0.Coords, EltTy.bits .f32 = 32 ∨ (Rect.block (s := S1000x50176) S1000x1792.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1792x1024.size a ≤ S50176x1024.size a
  hwx0_1 : ∀ i : grid0.Coords, EltTy.bits .f32 = 32 ∨ (Rect.block (s := S50176x1024) S1792x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .f32 = 32 ∨ (Rect.block (s := S1024x128) S1024x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1000x128.size a ≤ S1000x128.size a
  hwx0_7 : ∀ i : grid0.Coords, EltTy.bits .f32 = 32 ∨ (Rect.block (s := S1000x128) S1000x128.size (cc0_transform_7 i) (hinb0_7 i)).WholeWords (EltTy.packing .f32)

variable [Facts₀]

def dot_S1000x1792_S1792x1024_S1000x1024_1_0_0_1_n_n : DotDims S1000x1792 S1792x1024 S1000x1024 where
  lhsContracting := [1]
  rhsContracting := [0]
  lhsNonContracting := [0]
  rhsNonContracting := [1]
  lhsBatch := []
  rhsBatch := []
  wf := dot_S1000x1792_S1792x1024_S1000x1024_1_0_0_1_n_n_wf
def dot_S1000x1024_S1024x1024_S1000x1024_1_0_0_1_n_n : DotDims S1000x1024 S1024x1024 S1000x1024 where
  lhsContracting := [1]
  rhsContracting := [0]
  lhsNonContracting := [0]
  rhsNonContracting := [1]
  lhsBatch := []
  rhsBatch := []
  wf := dot_S1000x1024_S1024x1024_S1000x1024_1_0_0_1_n_n_wf
def dot_S1000x1024_S1024x128_S1000x128_1_0_0_1_n_n : DotDims S1000x1024 S1024x128 S1000x128 where
  lhsContracting := [1]
  rhsContracting := [0]
  lhsNonContracting := [0]
  rhsNonContracting := [1]
  lhsBatch := []
  rhsBatch := []
  wf := dot_S1000x1024_S1024x128_S1000x128_1_0_0_1_n_n_wf

abbrev win0_0 : Pipeline.Window sig grid0 :=
  Pipeline.Window.ofSpec (Memref.whole main_arg0) S1000x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1792x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1000x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond3 i == 1#1) | ⟨_ + 8, h⟩ => absurd h (Nat.not_lt.2 (Nat.le_add_left _ _))

class Facts : Prop extends Facts₀ where

variable [Facts]
-- ==== ReferenceIdeal.lean ====
abbrev S1000x50176 : Shape := ⟨2, ![1000, 50176]⟩
abbrev S50176x1024 : Shape := ⟨2, ![50176, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S1000x1024 : Shape := ⟨2, ![1000, 1024]⟩
abbrev S1x1024 : Shape := ⟨2, ![1, 1024]⟩
abbrev S_ : Shape := ⟨0, ![]⟩
abbrev S1000x4 : Shape := ⟨2, ![1000, 4]⟩
abbrev S1x4 : Shape := ⟨2, ![1, 4]⟩
abbrev S1000x12 : Shape := ⟨2, ![1000, 12]⟩
abbrev S1x12 : Shape := ⟨2, ![1, 12]⟩

abbrev nBuf : Space → Nat
  | .hbm => 31
  | .vmem => 0
  | .smem => 0
  | _ => 0

abbrev bufTy : (tb : Table) → Fin (tcTables nBuf tb) → BufTy
  | .hbm, ⟨0, _⟩ => ⟨S1000x50176, .f32⟩
  | .hbm, ⟨1, _⟩ => ⟨S50176x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x12, .f32⟩
  | .hbm, ⟨8, _⟩ => ⟨S12, .f32⟩
  | .hbm, ⟨9, _⟩ => ⟨S1000x1024, .f32⟩
  | .hbm, ⟨10, _⟩ => ⟨S1x1024, .f32⟩
  | .hbm, ⟨11, _⟩ => ⟨S1000x1024, .f32⟩
  | .hbm, ⟨12, _⟩ => ⟨S1000x1024, .f32⟩
  | .hbm, ⟨13, _⟩ => ⟨S_, .f32⟩
  | .hbm, ⟨14, _⟩ => ⟨S1000x1024, .f32⟩
  | .hbm, ⟨15, _⟩ => ⟨S1000x1024, .f32⟩
  | .hbm, ⟨16, _⟩ => ⟨S1000x1024, .f32⟩
  | .hbm, ⟨17, _⟩ => ⟨S1x1024, .f32⟩
  | .hbm, ⟨18, _⟩ => ⟨S1000x1024, .f32⟩
  | .hbm, ⟨19, _⟩ => ⟨S1000x1024, .f32⟩
  | .hbm, ⟨20, _⟩ => ⟨S_, .f32⟩
  | .hbm, ⟨21, _⟩ => ⟨S1000x1024, .f32⟩
  | .hbm, ⟨22, _⟩ => ⟨S1000x1024, .f32⟩
  | .hbm, ⟨23, _⟩ => ⟨S1000x4, .f32⟩
  | .hbm, ⟨24, _⟩ => ⟨S1x4, .f32⟩
  | .hbm, ⟨25, _⟩ => ⟨S1000x4, .f32⟩
  | .hbm, ⟨26, _⟩ => ⟨S1000x4, .f32⟩
  | .hbm, ⟨27, _⟩ => ⟨S1000x12, .f32⟩
  | .hbm, ⟨28, _⟩ => ⟨S1x12, .f32⟩
  | .hbm, ⟨29, _⟩ => ⟨S1000x12, .f32⟩
  | .hbm, ⟨30, _⟩ => ⟨S1000x12, .f32⟩
  | _, _ => ⟨S1000x50176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S1000x1024_0_1 : S1x1024.BroadcastsInDim S1000x1024 (![0, 1] : Fin 2 → Fin S1000x1024.rank)
  bcast_S_S1000x1024 : S_.BroadcastsInDim S1000x1024 (![] : Fin 0 → Fin S1000x1024.rank)
  bcast_S4_S1x4_1 : S4.BroadcastsInDim S1x4 (![1] : Fin 1 → Fin S1x4.rank)
  bcast_S1x4_S1000x4_0_1 : S1x4.BroadcastsInDim S1000x4 (![0, 1] : Fin 2 → Fin S1000x4.rank)
  bcast_S12_S1x12_1 : S12.BroadcastsInDim S1x12 (![1] : Fin 1 → Fin S1x12.rank)
  bcast_S1x12_S1000x12_0_1 : S1x12.BroadcastsInDim S1000x12 (![0, 1] : Fin 2 → Fin S1000x12.rank)
  dot_S1000x50176_S50176x1024_S1000x1024_1_0_0_1_n_n_wf : DotDims.WF S1000x50176 S50176x1024 S1000x1024 [1] [0] [0] [1] [] []
  dot_S1000x1024_S1024x1024_S1000x1024_1_0_0_1_n_n_wf : DotDims.WF S1000x1024 S1024x1024 S1000x1024 [1] [0] [0] [1] [] []
  dot_S1000x1024_S1024x4_S1000x4_1_0_0_1_n_n_wf : DotDims.WF S1000x1024 S1024x4 S1000x4 [1] [0] [0] [1] [] []
  dot_S1000x1024_S1024x12_S1000x12_1_0_0_1_n_n_wf : DotDims.WF S1000x1024 S1024x12 S1000x12 [1] [0] [0] [1] [] []

variable [Facts₀]

def dot_S1000x50176_S50176x1024_S1000x1024_1_0_0_1_n_n : DotDims S1000x50176 S50176x1024 S1000x1024 where
  lhsContracting := [1]
  rhsContracting := [0]
  lhsNonContracting := [0]
  rhsNonContracting := [1]
  lhsBatch := []
  rhsBatch := []
  wf := dot_S1000x50176_S50176x1024_S1000x1024_1_0_0_1_n_n_wf
def dot_S1000x1024_S1024x1024_S1000x1024_1_0_0_1_n_n : DotDims S1000x1024 S1024x1024 S1000x1024 where
  lhsContracting := [1]
  rhsContracting := [0]
  lhsNonContracting := [0]
  rhsNonContracting := [1]
  lhsBatch := []
  rhsBatch := []
  wf := dot_S1000x1024_S1024x1024_S1000x1024_1_0_0_1_n_n_wf
def dot_S1000x1024_S1024x4_S1000x4_1_0_0_1_n_n : DotDims S1000x1024 S1024x4 S1000x4 where
  lhsContracting := [1]
  rhsContracting := [0]
  lhsNonContracting := [0]
  rhsNonContracting := [1]
  lhsBatch := []
  rhsBatch := []
  wf := dot_S1000x1024_S1024x4_S1000x4_1_0_0_1_n_n_wf
def dot_S1000x1024_S1024x12_S1000x12_1_0_0_1_n_n : DotDims S1000x1024 S1024x12 S1000x12 where
  lhsContracting := [1]
  rhsContracting := [0]
  lhsNonContracting := [0]
  rhsNonContracting := [1]
  lhsBatch := []
  rhsBatch := []
  wf := dot_S1000x1024_S1024x12_S1000x12_1_0_0_1_n_n_wf

class Facts : Prop extends Facts₀ where

variable [Facts]
-- ==== Proof.Pieces.lean ====
/-
  What one grid step leaves behind, as values.

  At the first step of the sweep over the contraction axis the accumulator is set to the product of the step's two
  blocks; at every later step that product is added to what the step before left; and at the last step the output
  block is the two hidden layers and the widened head applied to the accumulator as that same step has just left it.
  Each of these is the payload of one store that covers its whole buffer, read through loads of whole buffers.
-/
import proofs.«145146_g2138893714091_cont_8to1_871_10_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- First step: the accumulator is the product of the step's blocks. -/
theorem acc_first (c : Dev nD) (i : grid0.Coords) (arg1 : Memref sig .tc .vmem S1000x1792 .f32) (harg1 : arg1.IsWhole) (arg2 : Memref sig .tc .vmem S1792x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1000x128 .f32) (harg8 : arg8.IsWhole) (arg9 : Memref sig .tc .vmem S1000x1024 .f32) (harg9 : arg9.IsWhole) (hc0 : cond0_0 i) (hc1 : ¬cond0_1 i) (hc2 : ¬cond0_2 i) (x0 : Vec F S1000x1792 .f32) (x1 : Vec F S1792x1024 .f32) (x2 : Vec F S1x1024 .f32) (x3 : Vec F S1024x1024 .f32) (x4 : Vec F S1x1024 .f32) (x5 : Vec F S1024x128 .f32) (x6 : Vec F S1x128 .f32) :
    sout0_A_0 c i arg1 harg1 arg2 harg2 arg3 harg3 arg4 harg4 arg5 harg5 arg6 harg6 arg7 harg7 arg8 harg8 arg9 harg9 hc0 hc1 hc2 x0 x1 x2 x3 x4 x5 x6 = k0_pay2 x0 x1 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 hc2 x0 x1 x2 x3 x4 x5 x6)]
  unfold kernelRun0_A
  dsimp only
  rw [View.canon_unit_zero hz]
  simp only [View.readAt_eq_ld, harg1.read_unread, harg2.read_unread, View.ld_unit_zero (S := S1000x1792) hz,
    View.ld_unit_zero (S := S1792x1024) hz]

/-- A middle step: the accumulator is what it held plus the product of the step's blocks. -/
theorem acc_middle (c : Dev nD) (i : grid0.Coords) (arg1 : Memref sig .tc .vmem S1000x1792 .f32) (harg1 : arg1.IsWhole) (arg2 : Memref sig .tc .vmem S1792x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1000x128 .f32) (harg8 : arg8.IsWhole) (arg9 : Memref sig .tc .vmem S1000x1024 .f32) (harg9 : arg9.IsWhole) (hc0 : ¬cond0_0 i) (hc1 : cond0_1 i) (hc2 : ¬cond0_2 i) (x0 : Vec F S1000x1792 .f32) (x1 : Vec F S1792x1024 .f32) (x2 : Vec F S1x1024 .f32) (x3 : Vec F S1024x1024 .f32) (x4 : Vec F S1x1024 .f32) (x5 : Vec F S1024x128 .f32) (x6 : Vec F S1x128 .f32) (xs0 : Vec F S1000x1024 .f32) :
    sout0_B_0 c i arg1 harg1 arg2 harg2 arg3 harg3 arg4 harg4 arg5 harg5 arg6 harg6 arg7 harg7 arg8 harg8 arg9 harg9 hc0 hc1 hc2 x0 x1 x2 x3 x4 x5 x6 xs0 = k0_pay3 x0 x1 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 hc2 x0 x1 x2 x3 x4 x5 x6 xs0)]
  unfold kernelRun0_B
  dsimp only
  rw [View.canon_unit_zero hz]
  simp only [View.readAt_eq_ld, harg1.read_unread, harg2.read_unread, harg9.read_unread, View.ld_unit_zero (S := S1000x1792) hz,
    View.ld_unit_zero (S := S1792x1024) hz, View.ld_unit_zero (S := S1000x1024) hz]

/-- The last step does the same to the accumulator. -/
theorem acc_last (c : Dev nD) (i : grid0.Coords) (arg1 : Memref sig .tc .vmem S1000x1792 .f32) (harg1 : arg1.IsWhole) (arg2 : Memref sig .tc .vmem S1792x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1000x128 .f32) (harg8 : arg8.IsWhole) (arg9 : Memref sig .tc .vmem S1000x1024 .f32) (harg9 : arg9.IsWhole) (hc0 : ¬cond0_0 i) (hc1 : cond0_1 i) (hc2 : cond0_2 i) (x0 : Vec F S1000x1792 .f32) (x1 : Vec F S1792x1024 .f32) (x2 : Vec F S1x1024 .f32) (x3 : Vec F S1024x1024 .f32) (x4 : Vec F S1x1024 .f32) (x5 : Vec F S1024x128 .f32) (x6 : Vec F S1x128 .f32) (xs0 : Vec F S1000x1024 .f32) :
    sout0_C_0 c i arg1 harg1 arg2 harg2 arg3 harg3 arg4 harg4 arg5 harg5 arg6 harg6 arg7 harg7 arg8 harg8 arg9 harg9 hc0 hc1 hc2 x0 x1 x2 x3 x4 x5 x6 xs0 = k0_pay3 x0 x1 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 hc2 x0 x1 x2 x3 x4 x5 x6 xs0)]
  unfold kernelRun0_C
  dsimp only
  sl_unfold_words
  rw [View.canon_unit_zero hz]
  simp only [View.readAt_eq_ld, harg1.read_unread, harg2.read_unread, harg9.read_unread, View.ld_unit_zero (S := S1000x1792) hz,
    View.ld_unit_zero (S := S1792x1024) hz, View.ld_unit_zero (S := S1000x1024) hz]

/-- The last step's output block: the layers applied to the accumulator the step has just completed. -/
theorem out_last (c : Dev nD) (i : grid0.Coords) (arg1 : Memref sig .tc .vmem S1000x1792 .f32) (harg1 : arg1.IsWhole) (arg2 : Memref sig .tc .vmem S1792x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1000x128 .f32) (harg8 : arg8.IsWhole) (arg9 : Memref sig .tc .vmem S1000x1024 .f32) (harg9 : arg9.IsWhole) (hc0 : ¬cond0_0 i) (hc1 : cond0_1 i) (hc2 : cond0_2 i) (x0 : Vec F S1000x1792 .f32) (x1 : Vec F S1792x1024 .f32) (x2 : Vec F S1x1024 .f32) (x3 : Vec F S1024x1024 .f32) (x4 : Vec F S1x1024 .f32) (x5 : Vec F S1024x128 .f32) (x6 : Vec F S1x128 .f32) (xs0 : Vec F S1000x1024 .f32) :
    out0_C_7 c i arg1 harg1 arg2 harg2 arg3 harg3 arg4 harg4 arg5 harg5 arg6 harg6 arg7 harg7 arg8 harg8 arg9 harg9 hc0 hc1 hc2 x0 x1 x2 x3 x4 x5 x6 xs0 = k0_pay4 (k0_pay3 x0 x1 xs0) x2 x3 x4 x5 x6 := by
  unfold out0_C_7
  rw [View.read_writes_eq_canon _ _ _ (cover0_C_7 c i arg1 harg1 arg2 harg2 arg3 harg3 arg4 harg4 arg5 harg5 arg6 harg6 arg7 harg7 arg8 harg8 arg9 harg9 hc0 hc1 hc2 x0 x1 x2 x3 x4 x5 x6 xs0)]
  unfold kernelRun0_C
  dsimp only
  sl_unfold_words
  rw [View.canon_unit_zero hz, View.readCov_unit_zero (S := S1000x1024) _ hz]
  simp only [View.readAt_eq_ld, harg1.read_unread, harg2.read_unread, harg3.read_unread, harg4.read_unread, harg5.read_unread,
    harg6.read_unread, harg7.read_unread, harg9.read_unread, View.ld_unit_zero (S := S1000x1792) hz,
    View.ld_unit_zero (S := S1792x1024) hz, View.ld_unit_zero (S := S1000x1024) hz, View.ld_unit_zero (S := S1x1024) hz,
    View.ld_unit_zero (S := S1024x1024) hz, View.ld_unit_zero (S := S1024x128) hz, View.ld_unit_zero (S := S1x128) hz]

end Cert.KernelIdeal.Pieces

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibKSplit.lean ====
/-
  The contraction axis of a matrix product cut into consecutive chunks.

  For `x : [n, K]` and `w : [K, d]` the entry (r, j) of the product is `∑ k, x (r, k) * w (k, j)`. The part of that sum
  over the columns `off ≤ k < off + K'` is the entry of the product of the corresponding column block of `x` with the
  row block of `w`. Cutting `[0, K)` into consecutive chunks cuts the sum into the chunks' parts; on the extended
  reals a finite sum is a sum in a commutative monoid, so the regrouping is free and needs no finiteness.
-/
import proofs.«145146_g2138893714091_cont_8to1_871_10_alg».proof.Proof.LibDense

noncomputable section

namespace Cert.LibKSplit

open Idealize.ShloMosaic Idealize.ShloMosaic.ValueIdx

/-- The part of entry `i`'s row-by-column sum over the `K'` columns from `off`. -/
def part {n K d : ℕ} (x : (⟨2, ![n, K]⟩ : Shape).Idx → EReal) (w : (⟨2, ![K, d]⟩ : Shape).Idx → EReal)
    (off K' : ℕ) (h : off + K' ≤ K) (i : (⟨2, ![n, d]⟩ : Shape).Idx) : EReal :=
  ∑ k : Fin K', x (ix2 (i 0) ⟨off + k.val, by have := k.isLt; omega⟩) * w (ix2 ⟨off + k.val, by have := k.isLt; omega⟩ (i 1))

/-- The whole sum is the part over all `K` columns. -/
theorem prod_eq_part {n K d : ℕ} (x : (⟨2, ![n, K]⟩ : Shape).Idx → EReal) (w : (⟨2, ![K, d]⟩ : Shape).Idx → EReal)
    (i : (⟨2, ![n, d]⟩ : Shape).Idx) : Cert.LibDense.prod x w i = part x w 0 K (by omega) i := by
  unfold Cert.LibDense.prod part
  refine Finset.sum_congr rfl fun k _ => ?_
  have e : (⟨0 + k.val, by have := k.isLt; omega⟩ : Fin K) = k := Fin.ext (Nat.zero_add _)
  rw [e]

/-- A part over `a + b` columns is the part over the first `a` plus the part over the next `b`. -/
theorem part_split {n K d : ℕ} (x : (⟨2, ![n, K]⟩ : Shape).Idx → EReal) (w : (⟨2, ![K, d]⟩ : Shape).Idx → EReal)
    (off a b off' ab : ℕ) (hab : a + b = ab) (hoff : off + a = off') (h : off + ab ≤ K) (i : (⟨2, ![n, d]⟩ : Shape).Idx) :
    part x w off ab h i = part x w off a (by omega) i + part x w off' b (by omega) i := by
  subst hab hoff
  unfold part
  rw [Fin.sum_univ_add]
  refine congrArg₂ (· + ·) rfl (Finset.sum_congr rfl fun k _ => ?_)
  have e : (⟨off + (Fin.natAdd a k).val, by have := k.isLt; simp only [Fin.coe_natAdd]; omega⟩ : Fin K)
      = ⟨off + a + k.val, by have := k.isLt; omega⟩ := Fin.ext (by simp only [Fin.coe_natAdd]; omega)
  exact congrArg₂ (· * ·) (congrArg x (congrArg (ix2 (i 0)) e)) (congrArg w (congrArg (fun r => ix2 r (i 1)) e))

/-- Four consecutive chunks, starting at `0`, `o₁`, `o₂`, `o₃`: the whole sum is the chunks' parts added from the left. -/
theorem prod_chunks4 {n K d : ℕ} (x : (⟨2, ![n, K]⟩ : Shape).Idx → EReal) (w : (⟨2, ![K, d]⟩ : Shape).Idx → EReal)
    (o₁ o₂ o₃ b c e : ℕ) (h₂ : o₁ + b = o₂) (h₃ : o₂ + c = o₃) (h₄ : o₃ + e = K) (i : (⟨2, ![n, d]⟩ : Shape).Idx) :
    Cert.LibDense.prod x w i
      = ((part x w 0 o₁ (by omega) i + part x w o₁ b (by omega) i) + part x w o₂ c (by omega) i) + part x w o₃ e (by omega) i := by
  rw [prod_eq_part, part_split x w 0 o₃ e o₃ K h₄ (Nat.zero_add _) (by omega) i,
    part_split x w 0 o₂ c o₂ o₃ h₃ (Nat.zero_add _) (by omega) i,
    part_split x w 0 o₁ b o₁ o₂ h₂ (Nat.zero_add _) (by omega) i]

/-- An entry of the product reads one row of `x` and one column of `w`: operands that agree there give the same entry. -/
theorem prod_congr {n n' K d : ℕ} (x : (⟨2, ![n, K]⟩ : Shape).Idx → EReal) (x' : (⟨2, ![n', K]⟩ : Shape).Idx → EReal)
    (w w' : (⟨2, ![K, d]⟩ : Shape).Idx → EReal) (i : (⟨2, ![n, d]⟩ : Shape).Idx) (i' : (⟨2, ![n', d]⟩ : Shape).Idx)
    (hx : ∀ k : Fin K, x (ix2 (i 0) k) = x' (ix2 (i' 0) k)) (hw : ∀ k : Fin K, w (ix2 k (i 1)) = w' (ix2 k (i' 1))) :
    Cert.LibDense.prod x w i = Cert.LibDense.prod x' w' i' := by
  unfold Cert.LibDense.prod
  exact Finset.sum_congr rfl fun k _ => congrArg₂ (· * ·) (hx k) (hw k)

end Cert.LibKSplit

end
-- ==== Proof.Layers.lean ====
/-
  A two-layer perceptron with linear heads, entry by entry on the extended reals.

  A linear layer sends a row `a (r, ·)` to `∑ k, a (r, k) * w (k, j) + b j`; a hidden layer takes the larger of that and
  zero. The network is two hidden layers followed by a linear head. Every entry of a layer reads one row of the layer
  below, one column of the weights and one bias entry, so two layers whose operands agree there agree at that entry:
  this is what lets a head computed against a weight matrix widened by extra columns be read off at the columns that
  were there before. Nothing here needs a finite entry: only the congruence of finite sums is used.
-/
import proofs.«145146_g2138893714091_cont_8to1_871_10_alg».proof.Proof.LibKSplit

noncomputable section

namespace Cert.Perceptron

open Idealize.ShloMosaic Idealize.ShloMosaic.ValueIdx

/-- The value of the zero word. -/
abbrev zero : EReal := Ideal.ofBits .f32 0x00000000#32

/-- A linear layer at entry `i = (r, j)`: row `r` of `a` against column `j` of `w`, plus the bias of column `j`. -/
def lin {n K d : ℕ} (a : (⟨2, ![n, K]⟩ : Shape).Idx → EReal) (w : (⟨2, ![K, d]⟩ : Shape).Idx → EReal) (b : Fin d → EReal) :
    (⟨2, ![n, d]⟩ : Shape).Idx → EReal :=
  fun i => Cert.LibDense.prod a w i + b (i 1)

/-- A hidden layer: the linear layer, rectified. -/
def hid {n K d : ℕ} (a : (⟨2, ![n, K]⟩ : Shape).Idx → EReal) (w : (⟨2, ![K, d]⟩ : Shape).Idx → EReal) (b : Fin d → EReal) :
    (⟨2, ![n, d]⟩ : Shape).Idx → EReal :=
  fun i => max (lin a w b i) zero

/-- Two linear layers agree at entries whose rows, columns and bias entries agree. -/
theorem lin_congr {n n' K d d' : ℕ} (a : (⟨2, ![n, K]⟩ : Shape).Idx → EReal) (a' : (⟨2, ![n', K]⟩ : Shape).Idx → EReal)
    (w : (⟨2, ![K, d]⟩ : Shape).Idx → EReal) (w' : (⟨2, ![K, d']⟩ : Shape).Idx → EReal) (b : Fin d → EReal) (b' : Fin d' → EReal)
    (i : (⟨2, ![n, d]⟩ : Shape).Idx) (i' : (⟨2, ![n', d']⟩ : Shape).Idx)
    (ha : ∀ k : Fin K, a (ix2 (i 0) k) = a' (ix2 (i' 0) k)) (hw : ∀ k : Fin K, w (ix2 k (i 1)) = w' (ix2 k (i' 1)))
    (hb : b (i 1) = b' (i' 1)) : lin a w b i = lin a' w' b' i' := by
  unfold lin Cert.LibDense.prod
  rw [hb, Finset.sum_congr rfl (fun k _ => congrArg₂ (· * ·) (ha k) (hw k))]

/-- The same for hidden layers. -/
theorem hid_congr {n n' K d d' : ℕ} (a : (⟨2, ![n, K]⟩ : Shape).Idx → EReal) (a' : (⟨2, ![n', K]⟩ : Shape).Idx → EReal)
    (w : (⟨2, ![K, d]⟩ : Shape).Idx → EReal) (w' : (⟨2, ![K, d']⟩ : Shape).Idx → EReal) (b : Fin d → EReal) (b' : Fin d' → EReal)
    (i : (⟨2, ![n, d]⟩ : Shape).Idx) (i' : (⟨2, ![n', d']⟩ : Shape).Idx)
    (ha : ∀ k : Fin K, a (ix2 (i 0) k) = a' (ix2 (i' 0) k)) (hw : ∀ k : Fin K, w (ix2 k (i 1)) = w' (ix2 k (i' 1)))
    (hb : b (i 1) = b' (i' 1)) : hid a w b i = hid a' w' b' i' := by
  unfold hid
  rw [lin_congr a a' w w' b b' i i' ha hw hb]

/-- The second hidden layer's activations: `x` through two hidden layers with biases given as rank-one arrays. -/
def hidden2 {n K h : ℕ} (x : (⟨2, ![n, K]⟩ : Shape).Idx → EReal) (w1 : (⟨2, ![K, h]⟩ : Shape).Idx → EReal)
    (b1 : (⟨1, ![h]⟩ : Shape).Idx → EReal) (w2 : (⟨2, ![h, h]⟩ : Shape).Idx → EReal) (b2 : (⟨1, ![h]⟩ : Shape).Idx → EReal) :
    (⟨2, ![n, h]⟩ : Shape).Idx → EReal :=
  hid (hid x w1 fun j => b1 (ix1 j)) w2 fun j => b2 (ix1 j)

/-- A head: a linear layer over the second hidden layer's activations. -/
def head {n K h d : ℕ} (x : (⟨2, ![n, K]⟩ : Shape).Idx → EReal) (w1 : (⟨2, ![K, h]⟩ : Shape).Idx → EReal)
    (b1 : (⟨1, ![h]⟩ : Shape).Idx → EReal) (w2 : (⟨2, ![h, h]⟩ : Shape).Idx → EReal) (b2 : (⟨1, ![h]⟩ : Shape).Idx → EReal)
    (wo : (⟨2, ![h, d]⟩ : Shape).Idx → EReal) (bo : (⟨1, ![d]⟩ : Shape).Idx → EReal) : (⟨2, ![n, d]⟩ : Shape).Idx → EReal :=
  lin (hidden2 x w1 b1 w2 b2) wo fun j => bo (ix1 j)

end Cert.Perceptron

end
-- ==== Proof.Payload.lean ====
/-
  The step's arithmetic on the extended reals, entry by entry.

  A step's product is the row-by-column sum of its two blocks; the accumulator's update adds it to what was there; and
  the output block is a hidden layer over the rectified (accumulator plus first bias), followed by the widened linear
  head. A bias arrives as a one-row array and is repeated down the rows, so the entry it contributes to column `j` is
  its own entry `(0, j)`.
-/
import proofs.«145146_g2138893714091_cont_8to1_871_10_alg».proof.Proof.Gen.KernelIdeal.Skeleton
import proofs.«145146_g2138893714091_cont_8to1_871_10_alg».proof.Proof.Layers

noncomputable section

namespace Cert.KernelIdeal.Payload

open Idealize.ShloMosaic Idealize.ShloMosaic.ValueIdx Cert.KernelIdeal Cert.KernelIdeal.Gen Cert.Perceptron

/-- A one-row array repeated down `n` rows reads, at `(r, j)`, its entry `(0, j)`. -/
theorem row_repeat {n d : ℕ} (v : (⟨2, ![1, d]⟩ : Shape).Idx → EReal) (h2 : (⟨2, ![1, d]⟩ : Shape).Broadcasts ⟨2, ![n, d]⟩) :
    broadcastTo ⟨2, ![n, d]⟩ v h2 = fun i => v (ix2 ⟨0, Nat.one_pos⟩ (i 1)) := by
  funext i
  refine broadcastTo_apply v h2 i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- The step's product into the zero accumulator is the row-by-column sum of the two blocks. -/
theorem step_prod (a : FVec Ideal S1000x1792 .f32) (w : FVec Ideal S1792x1024 .f32) :
    matmul dot_S1000x1792_S1792x1024_S1000x1024_1_0_0_1_n_n none a w (constant S1000x1024 .f32 0x00000000#32)
      = fun i => Cert.LibDense.prod a w i := by
  funext i; exact Cert.LibDense.matmul_plain a w i

/-- The second layer's product. -/
theorem layer2_prod (a : FVec Ideal S1000x1024 .f32) (w : FVec Ideal S1024x1024 .f32) :
    matmul dot_S1000x1024_S1024x1024_S1000x1024_1_0_0_1_n_n none a w (constant S1000x1024 .f32 0x00000000#32)
      = fun i => Cert.LibDense.prod a w i := by
  funext i; exact Cert.LibDense.matmul_plain a w i

/-- The head's product. -/
theorem head_prod (a : FVec Ideal S1000x1024 .f32) (w : FVec Ideal S1024x128 .f32) :
    matmul dot_S1000x1024_S1024x128_S1000x128_1_0_0_1_n_n none a w (constant S1000x128 .f32 0x00000000#32)
      = fun i => Cert.LibDense.prod a w i := by
  funext i; exact Cert.LibDense.matmul_plain a w i

/-- The first step's accumulator. -/
theorem first_eq (v0 : Vec Ideal S1000x1792 .f32) (v1 : Vec Ideal S1792x1024 .f32) :
    k0_pay2 (F := Ideal) v0 v1 = fun i => Cert.LibDense.prod v0 v1 i := by
  unfold k0_pay2 k0_pay1
  simp only [step_prod, shapeCast_self]

/-- A later step's accumulator: what it held plus the step's product. -/
theorem update_eq (v0 : Vec Ideal S1000x1792 .f32) (v1 : Vec Ideal S1792x1024 .f32) (v12 : Vec Ideal S1000x1024 .f32) :
    k0_pay3 (F := Ideal) v0 v1 v12 = fun i => v12 i + Cert.LibDense.prod v0 v1 i := by
  unfold k0_pay3 k0_pay1
  simp only [step_prod, shapeCast_self]
  rfl

/-- The first hidden layer from a completed accumulator `acc` and a one-row bias. -/
def rectified (acc : S1000x1024.Idx → EReal) (b : S1x1024.Idx → EReal) : S1000x1024.Idx → EReal :=
  fun i => max (acc i + b (ix2 ⟨0, Nat.one_pos⟩ (i 1))) zero

/-- The output block: a hidden layer over the rectified accumulator, then the widened head. -/
theorem output_eq (v12 : Vec Ideal S1000x1024 .f32) (v13 : Vec Ideal S1x1024 .f32) (v19 : Vec Ideal S1024x1024 .f32)
    (v21 : Vec Ideal S1x1024 .f32) (v27 : Vec Ideal S1024x128 .f32) (v30 : Vec Ideal S1x128 .f32) :
    k0_pay4 (F := Ideal) v12 v13 v19 v21 v27 v30
      = lin (hid (rectified v12 v13) v19 fun q => v21 (ix2 ⟨0, Nat.one_pos⟩ q)) v27 fun q => v30 (ix2 ⟨0, Nat.one_pos⟩ q) := by
  unfold k0_pay4
  simp only [layer2_prod, head_prod, row_repeat, shapeCast_self]
  rfl

end Cert.KernelIdeal.Payload

end
-- ==== Proof.Blocks.lean ====
/-
  What the windows' blocks hold, read off the arrays as the sweep finds them.

  Step `t` of the sweep over the contraction axis sees columns `1792 t … 1792 t + 1791` of the input rows and the
  same rows of the first weight matrix; the remaining five operands are resident: their one block is the whole array
  at every step.
-/
import proofs.«145146_g2138893714091_cont_8to1_871_10_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The block indices of the eight windows at every step of the sweep. -/
theorem block_index : ∀ t : Fin cfg0.N,
    (win0_0.index t (0 : Fin 2) = 0 ∧ win0_0.index t (1 : Fin 2) = t.val)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- The input rows' block at step `t`: columns from `1792 t`. -/
theorem rows_block (c : Dev nD) (t : Fin cfg0.N) (r : Fin 1000) (k : Fin 1792) (h : 1792 * t.val + k.val < 50176) :
    (iblk m c 0 t : S1000x1792.Idx → EReal) (ix2 r k) = V m c main_arg0 (ix2 r ⟨1792 * t.val + k.val, h⟩) := by
  have hi := (block_index t).1
  unfold iblk
  rw [View.read_apply]
  show V m c main_arg0 _ = V m c main_arg0 _
  refine congrArg (V m c main_arg0) (funext fun a => Fin.ext ?_)
  match a with
  | ⟨0, _⟩ => show win0_0.index t 0 * 1000 + 1 * r.val = r.val; rw [hi.1]; omega
  | ⟨1, _⟩ => show win0_0.index t 1 * 1792 + 1 * k.val = 1792 * t.val + k.val; rw [hi.2]; omega

/-- The first weight matrix's block at step `t`: rows from `1792 t`. -/
theorem weight_block (c : Dev nD) (t : Fin cfg0.N) (k : Fin 1792) (j : Fin 1024) (h : 1792 * t.val + k.val < 50176) :
    (iblk m c 1 t : S1792x1024.Idx → EReal) (ix2 k j) = V m c main_arg1 (ix2 ⟨1792 * t.val + k.val, h⟩ j) := by
  have hi := (block_index t).2.1
  unfold iblk
  rw [View.read_apply]
  show V m c main_arg1 _ = V m c main_arg1 _
  refine congrArg (V m c main_arg1) (funext fun a => Fin.ext ?_)
  match a with
  | ⟨0, _⟩ => show win0_1.index t 0 * 1792 + 1 * k.val = 1792 * t.val + k.val; rw [hi.1]; omega
  | ⟨1, _⟩ => show win0_1.index t 1 * 1024 + 1 * j.val = j.val; rw [hi.2]; omega

/-- The first bias row, resident. -/
theorem bias1_block (c : Dev nD) (t : Fin cfg0.N) : (iblk m c 2 t : S1x1024.Idx → EReal) = V m c main_v5 := by
  have hi := (block_index t).2.2.1
  funext y
  unfold iblk
  rw [View.read_apply]
  show V m c main_v5 _ = V m c main_v5 y
  refine congrArg (V m c main_v5) (funext fun a => Fin.ext ?_)
  match a with
  | ⟨0, _⟩ => show win0_2.index t 0 * 1 + 1 * (y 0).val = (y 0).val; rw [hi.1]; omega
  | ⟨1, _⟩ => show win0_2.index t 1 * 1024 + 1 * (y 1).val = (y 1).val; rw [hi.2]; omega

/-- The second weight matrix, resident. -/
theorem weight2_block (c : Dev nD) (t : Fin cfg0.N) : (iblk m c 3 t : S1024x1024.Idx → EReal) = V m c main_arg3 := by
  have hi := (block_index t).2.2.2.1
  funext y
  unfold iblk
  rw [View.read_apply]
  show V m c main_arg3 _ = V m c main_arg3 y
  refine congrArg (V m c main_arg3) (funext fun a => Fin.ext ?_)
  match a with
  | ⟨0, _⟩ => show win0_3.index t 0 * 1024 + 1 * (y 0).val = (y 0).val; rw [hi.1]; omega
  | ⟨1, _⟩ => show win0_3.index t 1 * 1024 + 1 * (y 1).val = (y 1).val; rw [hi.2]; omega

/-- The second bias row, resident. -/
theorem bias2_block (c : Dev nD) (t : Fin cfg0.N) : (iblk m c 4 t : S1x1024.Idx → EReal) = V m c main_v6 := by
  have hi := (block_index t).2.2.2.2.1
  funext y
  unfold iblk
  rw [View.read_apply]
  show V m c main_v6 _ = V m c main_v6 y
  refine congrArg (V m c main_v6) (funext fun a => Fin.ext ?_)
  match a with
  | ⟨0, _⟩ => show win0_4.index t 0 * 1 + 1 * (y 0).val = (y 0).val; rw [hi.1]; omega
  | ⟨1, _⟩ => show win0_4.index t 1 * 1024 + 1 * (y 1).val = (y 1).val; rw [hi.2]; omega

/-- The widened head's weights, resident. -/
theorem headw_block (c : Dev nD) (t : Fin cfg0.N) : (iblk m c 5 t : S1024x128.Idx → EReal) = V m c main_v1 := by
  have hi := (block_index t).2.2.2.2.2.1
  funext y
  unfold iblk
  rw [View.read_apply]
  show V m c main_v1 _ = V m c main_v1 y
  refine congrArg (V m c main_v1) (funext fun a => Fin.ext ?_)
  match a with
  | ⟨0, _⟩ => show win0_5.index t 0 * 1024 + 1 * (y 0).val = (y 0).val; rw [hi.1]; omega
  | ⟨1, _⟩ => show win0_5.index t 1 * 128 + 1 * (y 1).val = (y 1).val; rw [hi.2]; omega

/-- The widened head's bias row, resident. -/
theorem headb_block (c : Dev nD) (t : Fin cfg0.N) : (iblk m c 6 t : S1x128.Idx → EReal) = V m c main_v4 := by
  have hi := (block_index t).2.2.2.2.2.2.1
  funext y
  unfold iblk
  rw [View.read_apply]
  show V m c main_v4 _ = V m c main_v4 y
  refine congrArg (V m c main_v4) (funext fun a => Fin.ext ?_)
  match a with
  | ⟨0, _⟩ => show win0_6.index t 0 * 1 + 1 * (y 0).val = (y 0).val; rw [hi.1]; omega
  | ⟨1, _⟩ => show win0_6.index t 1 * 128 + 1 * (y 1).val = (y 1).val; rw [hi.2]; omega

end Cert.KernelIdeal.Blocks

end
-- ==== Proof.Sweep.lean ====
/-
  The sweep over the contraction axis, step by step.

  After step `n` the accumulator holds, at entry (r, j), the part of the row-by-column sum of the input rows against
  the first weight matrix over the columns `0 … 1792 (n + 1) − 1`: the first step stores its block product, each
  later step adds its own, and consecutive parts of a finite sum on the extended reals add up to the part over their
  union with no condition on the entries. After the last of the 28 steps that is the whole product, and the output
  block written there is the two hidden layers and the widened head over it.
-/
import proofs.«145146_g2138893714091_cont_8to1_871_10_alg».proof.Proof.Pieces
import proofs.«145146_g2138893714091_cont_8to1_871_10_alg».proof.Proof.Payload
import proofs.«145146_g2138893714091_cont_8to1_871_10_alg».proof.Proof.Blocks

noncomputable section

namespace Cert.KernelIdeal.Sweep

open Idealize.ShloMosaic Idealize.ShloMosaic.TcCoe Idealize.SL.Sem Idealize.ShloMosaic.ValueIdx
open Cert.KernelIdeal Cert.KernelIdeal.Gen Cert.Perceptron

variable (m : (ℓ : Loc nD τ sig) → Buf (Elt Ideal) ℓ)

/-- The input rows and the first weight matrix as the sweep finds them. -/
abbrev rows (c : Dev nD) : S1000x50176.Idx → EReal := V m c main_arg0
abbrev weights (c : Dev nD) : S50176x1024.Idx → EReal := V m c main_arg1

theorem steps : cfg0.N = 28 := N_0

theorem chunk_le (t : Fin cfg0.N) : 1792 * t.val + 1792 ≤ 50176 := by
  have := t.isLt; have := steps; omega

theorem upto_le {n : ℕ} (h : n < cfg0.N) : 0 + 1792 * (n + 1) ≤ 50176 := by
  have := steps; omega

/-- The block product of step `t` is the part of the whole sum over the step's columns. -/
theorem block_prod (c : Dev nD) (t : Fin cfg0.N) (i : S1000x1024.Idx) :
    Cert.LibDense.prod (iblk m c 0 t : S1000x1792.Idx → EReal) (iblk m c 1 t : S1792x1024.Idx → EReal) i
      = Cert.LibKSplit.part (rows m c) (weights m c) (1792 * t.val) 1792 (chunk_le t) i := by
  unfold Cert.LibDense.prod Cert.LibKSplit.part
  refine Finset.sum_congr rfl fun k _ => ?_
  exact congrArg₂ (· * ·) (Blocks.rows_block m c t (i 0) k (by have := chunk_le t; have := k.isLt; omega))
    (Blocks.weight_block m c t k (i 1) (by have := chunk_le t; have := k.isLt; omega))

/-- The first step leaves its block product in the accumulator. -/
theorem first_step (c : Dev nD) (t : Fin cfg0.N) (hz : t.val = 0) :
    (outsAt0 m c t.val t.isLt).2 = fun i => Cert.LibDense.prod (iblk m c 0 t : S1000x1792.Idx → EReal) (iblk m c 1 t) i := by
  have h0 : t.val % 28 = 0 := by omega
  have h1 : ¬1 ≤ t.val := by omega
  have h2 : ¬t.val % 28 = 27 := by omega
  rw [outsAt0_A m c t h0 h1 h2]
  dsimp only
  exact (Pieces.acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t)).trans (Payload.first_eq (iblk m c 0 t) (iblk m c 1 t))

/-- A later step adds its block product to what the step before left. -/
theorem later_step (c : Dev nD) (t : Fin cfg0.N) (h1 : 1 ≤ t.val) :
    (outsAt0 m c t.val t.isLt).2 = fun i => (outsAt0 m c (t.val - 1) (Nat.lt_of_le_of_lt (Nat.sub_le _ _) t.isLt)).2 i
      + Cert.LibDense.prod (iblk m c 0 t : S1000x1792.Idx → EReal) (iblk m c 1 t) i := by
  have hN := steps
  have h0 : ¬t.val % 28 = 0 := by have := t.isLt; omega
  by_cases h2 : t.val % 28 = 27
  · rw [outsAt0_C m c t h0 h1 h2]
    dsimp only
    exact (Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2).trans (Payload.update_eq (iblk m c 0 t) (iblk m c 1 t) (outsAt0 m c (t.val - 1) (Nat.lt_of_le_of_lt (Nat.sub_le _ _) t.isLt)).2)
  · rw [outsAt0_B m c t h0 h1 h2]
    dsimp only
    exact (Pieces.acc_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2).trans (Payload.update_eq (iblk m c 0 t) (iblk m c 1 t) (outsAt0 m c (t.val - 1) (Nat.lt_of_le_of_lt (Nat.sub_le _ _) t.isLt)).2)

/-- After step `n` the accumulator holds the part of the sum over the first `1792 (n + 1)` columns. -/
theorem acc_eq (c : Dev nD) : ∀ (n : ℕ) (h : n < cfg0.N) (i : S1000x1024.Idx),
    (outsAt0 m c n h).2 i = Cert.LibKSplit.part (rows m c) (weights m c) 0 (1792 * (n + 1)) (upto_le h) i
  | 0, h, i => by
    rw [first_step m c ⟨0, h⟩ rfl]
    show Cert.LibDense.prod _ _ i = _
    rw [block_prod m c ⟨0, h⟩ i]
    rfl
  | n + 1, h, i => by
    rw [later_step m c ⟨n + 1, h⟩ (Nat.succ_le_succ (Nat.zero_le n))]
    show (outsAt0 m c n _).2 i + Cert.LibDense.prod _ _ i = _
    rw [acc_eq c n (Nat.lt_of_succ_lt h) i, block_prod m c ⟨n + 1, h⟩ i]
    exact (Cert.LibKSplit.part_split (rows m c) (weights m c) 0 (1792 * (n + 1)) 1792 (1792 * (n + 1)) (1792 * (n + 1 + 1))
      (by omega) (by omega) (upto_le h) i).symm

/-- After the last step the accumulator holds the whole product. -/
theorem acc_last (c : Dev nD) (t : Fin cfg0.N) (h2 : t.val % 28 = 27) :
    (outsAt0 m c t.val t.isLt).2 = fun i => Cert.LibDense.prod (rows m c) (weights m c) i := by
  have hN := steps
  have ht : t.val = 27 := by have := t.isLt; omega
  funext i
  rw [acc_eq m c t.val t.isLt i, Cert.LibKSplit.prod_eq_part]
  have e : 1792 * (t.val + 1) = 50176 := by omega
  unfold Cert.LibKSplit.part
  refine Fintype.sum_equiv (finCongr e) _ _ fun k => ?_
  rfl

/-- The output block the last step writes. -/
theorem out_last (c : Dev nD) (t : Fin cfg0.N) (h2 : t.val % 28 = 27) :
    (outsAt0 m c t.val t.isLt).1
      = lin (hid (Payload.rectified (fun i => Cert.LibDense.prod (rows m c) (weights m c) i) (V m c main_v5)) (V m c main_arg3)
          fun q => V m c main_v6 (ix2 ⟨0, Nat.one_pos⟩ q)) (V m c main_v1) fun q => V m c main_v4 (ix2 ⟨0, Nat.one_pos⟩ q) := by
  have hN := steps
  have h0 : ¬t.val % 28 = 0 := by omega
  have h1 : 1 ≤ t.val := by omega
  have e1 := Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2
  have ea : k0_pay3 (F := Ideal) (iblk m c 0 t) (iblk m c 1 t) (outsAt0 m c (t.val - 1) (Nat.lt_of_le_of_lt (Nat.sub_le _ _) t.isLt)).2
      = fun i => Cert.LibDense.prod (rows m c) (weights m c) i := by
    rw [← acc_last m c t h2, later_step m c t h1]
    exact Payload.update_eq (iblk m c 0 t) (iblk m c 1 t) (outsAt0 m c (t.val - 1) (Nat.lt_of_le_of_lt (Nat.sub_le _ _) t.isLt)).2
  rw [outsAt0_C m c t h0 h1 h2]
  dsimp only
  rw [e1, ea, Blocks.bias1_block m c t, Blocks.weight2_block m c t, Blocks.bias2_block m c t, Blocks.headw_block m c t,
    Blocks.headb_block m c t]
  exact Payload.output_eq _ (V m c main_v5) (V m c main_arg3) (V m c main_v6) (V m c main_v1) (V m c main_v4)

end Cert.KernelIdeal.Sweep

end
-- ==== Proof.Prefix.lean ====
/-
  What the host operations in front of the sweep leave in the resident operands.

  The two biases of the hidden layers are laid out as one-row arrays. The two heads' weight matrices are set side by
  side, classifier first, and widened by zero columns to 128 lanes; their biases are set end to end and widened the
  same way. So column `j` of the widened weights is column `j` of the classifier's for `j < 4` and column `j − 4` of
  the regressor's for `4 ≤ j < 16`, and likewise for the widened bias. The columns past 16 are never read back.
-/
import proofs.«145146_g2138893714091_cont_8to1_871_10_alg».proof.Proof.Gen.KernelIdeal.Frame
import Idealize.ShloMosaic.Lib.StableHlo.Run
import Idealize.ShloMosaic.Lib.Pipeline.Value
import Idealize.ShloMosaic.Lib.KernelVsHost
import Idealize.ShloMosaic.Lib.ValueIdx

noncomputable section

namespace Cert.KernelIdeal.Prefix

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

/-- The value the widening fills with: the integer zero converted. -/
abbrev fill : S_.Idx → EReal := sitofp (F := Ideal) .f32 (constantI S_ 32 0#32)

/-- The two heads' weights side by side. -/
abbrev sideBySide (wc : S1024x4.Idx → EReal) (wr : S1024x12.Idx → EReal) : S1024x16.Idx → EReal :=
  concatenate S1024x16 1 [⟨S1024x4, wc⟩, ⟨S1024x12, wr⟩] concatenates_S1024x4_S1024x12_S1024x16_d1

/-- The two heads' biases end to end. -/
abbrev endToEnd (bc : S4.Idx → EReal) (br : S12.Idx → EReal) : S16.Idx → EReal :=
  concatenate S16 0 [⟨S4, bc⟩, ⟨S12, br⟩] concatenates_S4_S12_S16_d0

theorem bias1_arr (c : Dev nD) :
    (V m c main_v5 : S1x1024.Idx → EReal) = shapeCast S1x1024 (m ((c : Thread nD τ).loc main_arg2)) shapeCasts_S1024_S1x1024 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

theorem bias2_arr (c : Dev nD) :
    (V m c main_v6 : S1x1024.Idx → EReal) = shapeCast S1x1024 (m ((c : Thread nD τ).loc main_arg4)) shapeCasts_S1024_S1x1024 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

theorem headw_arr (c : Dev nD) :
    (V m c main_v1 : S1024x128.Idx → EReal)
      = pad S1024x128 ![0, 0] ![0, 112] ![0, 0] (sideBySide (m ((c : Thread nD τ).loc main_arg5)) (m ((c : Thread nD τ).loc main_arg7)))
          fill pads_S1024x16_S1024x128_000_01120 h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

theorem headb_arr (c : Dev nD) :
    (V m c main_v4 : S1x128.Idx → EReal)
      = shapeCast S1x128 (pad S128 ![0] ![112] ![0] (endToEnd (m ((c : Thread nD τ).loc main_arg6)) (m ((c : Thread nD τ).loc main_arg8)))
          fill pads_S16_S128_01120 h_S_) shapeCasts_S128_S1x128 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- A rank-one array laid out as one row reads, at `(0, q)`, its entry `q`. -/
theorem one_row {d : ℕ} (b : (⟨1, ![d]⟩ : Shape).Idx → EReal) (h : (⟨1, ![d]⟩ : Shape).ShapeCasts ⟨2, ![1, d]⟩) (q : Fin d) :
    shapeCast ⟨2, ![1, d]⟩ b h (ix2 ⟨0, Nat.one_pos⟩ q) = b (ix1 q) := by
  refine (shapeCast_addUnit_apply ![d] b h _).trans (congrArg b (funext fun a => ?_))
  match a with
  | ⟨0, _⟩ => rfl

/-- The first hidden layer's bias as the sweep finds it. -/
theorem bias1_at (c : Dev nD) (q : Fin 1024) :
    (V m c main_v5 : S1x1024.Idx → EReal) (ix2 ⟨0, Nat.one_pos⟩ q) = m ((c : Thread nD τ).loc main_arg2) (ix1 q) := by
  rw [bias1_arr]; exact one_row _ _ q

/-- The second hidden layer's bias as the sweep finds it. -/
theorem bias2_at (c : Dev nD) (q : Fin 1024) :
    (V m c main_v6 : S1x1024.Idx → EReal) (ix2 ⟨0, Nat.one_pos⟩ q) = m ((c : Thread nD τ).loc main_arg4) (ix1 q) := by
  rw [bias2_arr]; exact one_row _ _ q

/-- The widened weights at a classifier column. -/
theorem headw_left (c : Dev nD) (k : Fin 1024) (j : Fin 128) (j' : Fin 4) (hj : j.val = j'.val) :
    (V m c main_v1 : S1024x128.Idx → EReal) (ix2 k j) = m ((c : Thread nD τ).loc main_arg5) (ix2 k j') := by
  rw [headw_arr]
  refine (pad_apply_of_inside _ _ _ _ _ _ h_S_ (ix2 k j) (ix2 k ⟨j.val, by have := j'.isLt; omega⟩) (fun a => ?_)).trans ?_
  · match a with
    | ⟨0, _⟩ => show k.val = 0 + k.val * (0 + 1); omega
    | ⟨1, _⟩ => show j.val = 0 + j.val * (0 + 1); omega
  · refine concatenate_pair_apply_left (t := S1024x16) (s₁ := S1024x4) (s₂ := S1024x12) (1 : Fin 2) (m ((c : Thread nD τ).loc main_arg5)) (m ((c : Thread nD τ).loc main_arg7)) concatenates_S1024x4_S1024x12_S1024x16_d1 _ rfl (ix2 k j') (fun b => ?_)
    match b with
    | ⟨0, _⟩ => rfl
    | ⟨1, _⟩ => exact hj.symm

/-- The widened weights at a regressor column. -/
theorem headw_right (c : Dev nD) (k : Fin 1024) (j : Fin 128) (j' : Fin 12) (hj : j.val = 4 + j'.val) :
    (V m c main_v1 : S1024x128.Idx → EReal) (ix2 k j) = m ((c : Thread nD τ).loc main_arg7) (ix2 k j') := by
  rw [headw_arr]
  refine (pad_apply_of_inside _ _ _ _ _ _ h_S_ (ix2 k j) (ix2 k ⟨j.val, by have := j'.isLt; omega⟩) (fun a => ?_)).trans ?_
  · match a with
    | ⟨0, _⟩ => show k.val = 0 + k.val * (0 + 1); omega
    | ⟨1, _⟩ => show j.val = 0 + j.val * (0 + 1); omega
  · refine concatenate_pair_apply_right (t := S1024x16) (s₁ := S1024x4) (s₂ := S1024x12) (1 : Fin 2) (m ((c : Thread nD τ).loc main_arg5)) (m ((c : Thread nD τ).loc main_arg7)) concatenates_S1024x4_S1024x12_S1024x16_d1 _ rfl rfl (ix2 k j') (fun b hb => ?_) ?_
    · match b with
      | ⟨0, _⟩ => rfl
      | ⟨1, _⟩ => exact absurd rfl hb
    · show j'.val + 4 = j.val; omega

/-- The widened bias at a classifier column. -/
theorem headb_left (c : Dev nD) (j : Fin 128) (j' : Fin 4) (hj : j.val = j'.val) :
    (V m c main_v4 : S1x128.Idx → EReal) (ix2 ⟨0, Nat.one_pos⟩ j) = m ((c : Thread nD τ).loc main_arg6) (ix1 j') := by
  rw [headb_arr]
  refine (one_row _ _ j).trans ?_
  refine (pad_apply_of_inside _ _ _ _ _ _ h_S_ (ix1 j) (ix1 ⟨j.val, by have := j'.isLt; omega⟩) (fun a => ?_)).trans ?_
  · match a with
    | ⟨0, _⟩ => show j.val = 0 + j.val * (0 + 1); omega
  · refine concatenate_pair_apply_left (t := S16) (s₁ := S4) (s₂ := S12) (0 : Fin 1) (m ((c : Thread nD τ).loc main_arg6)) (m ((c : Thread nD τ).loc main_arg8)) concatenates_S4_S12_S16_d0 _ rfl (ix1 j') (fun b => ?_)
    match b with
    | ⟨0, _⟩ => exact hj.symm

/-- The widened bias at a regressor column. -/
theorem headb_right (c : Dev nD) (j : Fin 128) (j' : Fin 12) (hj : j.val = 4 + j'.val) :
    (V m c main_v4 : S1x128.Idx → EReal) (ix2 ⟨0, Nat.one_pos⟩ j) = m ((c : Thread nD τ).loc main_arg8) (ix1 j') := by
  rw [headb_arr]
  refine (one_row _ _ j).trans ?_
  refine (pad_apply_of_inside _ _ _ _ _ _ h_S_ (ix1 j) (ix1 ⟨j.val, by have := j'.isLt; omega⟩) (fun a => ?_)).trans ?_
  · match a with
    | ⟨0, _⟩ => show j.val = 0 + j.val * (0 + 1); omega
  · refine concatenate_pair_apply_right (t := S16) (s₁ := S4) (s₂ := S12) (0 : Fin 1) (m ((c : Thread nD τ).loc main_arg6)) (m ((c : Thread nD τ).loc main_arg8)) concatenates_S4_S12_S16_d0 _ rfl rfl (ix1 j') (fun b hb => ?_) ?_
    · match b with
      | ⟨0, _⟩ => exact absurd rfl hb
    · show j'.val + 4 = j.val; omega

end Cert.KernelIdeal.Prefix

end
-- ==== Proof.Result.lean ====
/-
  What the kernel's two results end holding.

  Only the last step of the sweep writes the output block back, and that block is the whole [1000, 128] array: the
  two hidden layers over the input rows, then the widened head. The two results are its columns 0 … 3 and 4 … 15,
  where the widened head's weights and bias are the classifier's and the box regressor's: so they are the two heads
  of the perceptron.
-/
import proofs.«145146_g2138893714091_cont_8to1_871_10_alg».proof.Proof.Sweep
import proofs.«145146_g2138893714091_cont_8to1_871_10_alg».proof.Proof.Prefix

noncomputable section

namespace Cert.KernelIdeal.Result

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.Perceptron

variable (m : (ℓ : Loc nD τ sig) → Buf (Elt Ideal) ℓ) (ρ : Dev nD → PrngReg)

/-- The output array: the widened head over the second hidden layer, as the sweep's last step writes it. -/
def outArr (c : Dev nD) : S1000x128.Idx → EReal :=
  lin (hid (Payload.rectified (fun i => Cert.LibDense.prod (Sweep.rows m c) (Sweep.weights m c) i) (V m c main_v5)) (V m c main_arg3)
    fun q => V m c main_v6 (ix2 ⟨0, Nat.one_pos⟩ q)) (V m c main_v1) fun q => V m c main_v4 (ix2 ⟨0, Nat.one_pos⟩ q)

/-- The last step of the sweep. -/
def lastStep : Fin cfg0.N := ⟨27, by rw [Sweep.steps]; decide⟩

/-- The one write-back writes the output array: its block is the whole array. -/
theorem flushed_eq (c : Dev nD) (t : Fin cfg0.N) (hf : (cfg0.win 7).flush t = true) :
    (dats m 0 c).flushed 7 t = ((cfg0.win 7).blk t).view.read (Elt Ideal) (outArr m c) := by
  have h27 : t.val % 28 = 27 := (flush0_7 t).mp hf
  have hi := (Blocks.block_index t).2.2.2.2.2.2.2
  show (cfg0.win 7).cut (grid0.coords t) ((dats m 0 c).after 7 t) = _
  rw [after0_7, Sweep.out_last m c t h27]
  have hz' : (fun a => win0_7.index t a * main_v7.ty.shape.size a) = fun _ => 0 := funext fun a => by
    match a with
    | ⟨0, _⟩ => show win0_7.index t 0 * 1000 = 0; rw [hi.1]
    | ⟨1, _⟩ => show win0_7.index t 1 * 128 = 0; rw [hi.2]
  exact (Memref.read_access_unit_zero (Elt Ideal) main_v7 hz' (fun a => by rw [congrFun hz' a]; simp) (outArr m c)).symm

/-- So the output array ends holding it. -/
theorem final_out (c : Dev nD) : (dats m 0 c).arrAt 7 cfg0.N = outArr m c :=
  (dats m 0 c).arrAt_eq_of_cover 7 (outArr m c) (flushed_eq m c) fun i =>
    ⟨lastStep, (flush0_7 lastStep).mpr rfl, by
      have hi := (Blocks.block_index lastStep).2.2.2.2.2.2.2
      show i ∈ ((View.whole main_v7).slice (win0_7.rect lastStep)).set
      rw [View.set_slice_whole, Rect.mem_set_unit]
      intro a
      have h0 : (i 0 : Nat) < 1000 := (i 0).isLt
      have h1 : (i 1 : Nat) < 128 := (i 1).isLt
      match a with
      | ⟨0, _⟩ =>
        show win0_7.index lastStep 0 * win0_7.size 0 ≤ (i 0 : Nat)
          ∧ (i 0 : Nat) < win0_7.index lastStep 0 * win0_7.size 0 + win0_7.xsize (grid0.coords lastStep) 0
        rw [hi.1, show win0_7.xsize (grid0.coords lastStep) 0 = 1000 from by decide +kernel]; omega
      | ⟨1, _⟩ =>
        show win0_7.index lastStep 1 * win0_7.size 1 ≤ (i 1 : Nat)
          ∧ (i 1 : Nat) < win0_7.index lastStep 1 * win0_7.size 1 + win0_7.xsize (grid0.coords lastStep) 1
        rw [hi.2, show win0_7.xsize (grid0.coords lastStep) 1 = 128 from by decide +kernel]; omega⟩

/-- The first result: columns 0 … 3 of the output array. -/
theorem logits_tail (c : Dev nD) :
    Pipeline.afterTail₀ cfgs (dats m) 0 (V0 m) [hostOps1] c main_v8
      = extractStridedSlice S1000x4 ![0, 0] (outArr m c) slices_S1000x128_S1000x4_0_0 := by
  unfold Pipeline.afterTail₀
  show StableHlo.after hostOps1 _ (Proc.devRef .tc main_v8) = _
  after_results
  exact congrArg (fun x => extractStridedSlice S1000x4 ![0, 0] x slices_S1000x128_S1000x4_0_0)
    ((Pipeline.withArrays_arr spec0 launch0.win.arr_inj c (V0 m c) (fun w => (dats m 0 c).arrAt w cfg0.N) 7).trans (final_out m c))

/-- The second result: columns 4 … 15 of the output array. -/
theorem boxes_tail (c : Dev nD) :
    Pipeline.afterTail₀ cfgs (dats m) 0 (V0 m) [hostOps1] c main_v9
      = extractStridedSlice S1000x12 ![0, 4] (outArr m c) slices_S1000x128_S1000x12_0_4 := by
  unfold Pipeline.afterTail₀
  show StableHlo.after hostOps1 _ (Proc.devRef .tc main_v9) = _
  after_results
  exact congrArg (fun x => extractStridedSlice S1000x12 ![0, 4] x slices_S1000x128_S1000x12_0_4)
    ((Pipeline.withArrays_arr spec0 launch0.win.arr_inj c (V0 m c) (fun w => (dats m 0 c).arrAt w cfg0.N) 7).trans (final_out m c))

/-- The rectified accumulator is the first hidden layer of the arguments. -/
theorem rectified_eq (c : Dev nD) :
    Payload.rectified (fun i => Cert.LibDense.prod (Sweep.rows m c) (Sweep.weights m c) i) (V m c main_v5)
      = hid (m ((c.tc : Thread nD τ).loc main_arg0)) (m ((c.tc : Thread nD τ).loc main_arg1)) fun q => (m ((c.tc : Thread nD τ).loc main_arg2)) (ix1 q) := by
  funext i
  obtain ⟨r, q, rfl⟩ : ∃ (r : Fin 1000) (q : Fin 1024), i = ix2 r q := ⟨i 0, i 1, eq_ix2 i⟩
  show max (Cert.LibDense.prod (V m c main_arg0) (V m c main_arg1) (ix2 r q) + V m c main_v5 (ix2 ⟨0, Nat.one_pos⟩ q)) zero
    = max (Cert.LibDense.prod (m ((c.tc : Thread nD τ).loc main_arg0)) (m ((c.tc : Thread nD τ).loc main_arg1)) (ix2 r q) + (m ((c.tc : Thread nD τ).loc main_arg2)) (ix1 q)) zero
  rw [Prefix.bias1_at m c q, V_main_arg0 m c, V_main_arg1 m c]

/-- The layer the head reads is the second hidden layer of the arguments. -/
theorem hidden_eq (c : Dev nD) :
    hid (Payload.rectified (fun i => Cert.LibDense.prod (Sweep.rows m c) (Sweep.weights m c) i) (V m c main_v5)) (V m c main_arg3)
        (fun q => V m c main_v6 (ix2 ⟨0, Nat.one_pos⟩ q))
      = hidden2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [rectified_eq m c, V_main_arg3 m c,
    show (fun q : Fin 1024 => V m c main_v6 (ix2 ⟨0, Nat.one_pos⟩ q)) = fun q => (m ((c.tc : Thread nD τ).loc main_arg4)) (ix1 q) from
      funext fun q => Prefix.bias2_at m c q]
  rfl

/-- Columns 0 … 3 of the output array are the classifier's head. -/
theorem logits_eq (c : Dev nD) :
    extractStridedSlice S1000x4 ![0, 0] (outArr m c) slices_S1000x128_S1000x4_0_0
      = head (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨r, j, rfl⟩ : ∃ (r : Fin 1000) (j : Fin 4), i = ix2 r j := ⟨i 0, i 1, eq_ix2 i⟩
  have hj : j.val < 128 := by have := j.isLt; omega
  refine (extractStridedSlice_apply _ _ _ (ix2 r j) (ix2 r ⟨j.val, hj⟩) (fun a => ?_)).trans ?_
  · match a with
    | ⟨0, _⟩ => show r.val = 0 + r.val; omega
    | ⟨1, _⟩ => show j.val = 0 + j.val; omega
  · unfold outArr head
    rw [hidden_eq m c]
    exact lin_congr _ _ _ _ _ _ (ix2 r ⟨j.val, hj⟩) (ix2 r j) (fun k => rfl)
      (fun k => Prefix.headw_left m c k ⟨j.val, hj⟩ j rfl) (Prefix.headb_left m c ⟨j.val, hj⟩ j rfl)

/-- Columns 4 … 15 of the output array are the box regressor's head. -/
theorem boxes_eq (c : Dev nD) :
    extractStridedSlice S1000x12 ![0, 4] (outArr m c) slices_S1000x128_S1000x12_0_4
      = head (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) := by
  funext i
  obtain ⟨r, j, rfl⟩ : ∃ (r : Fin 1000) (j : Fin 12), i = ix2 r j := ⟨i 0, i 1, eq_ix2 i⟩
  have hj : 4 + j.val < 128 := by have := j.isLt; omega
  refine (extractStridedSlice_apply _ _ _ (ix2 r j) (ix2 r ⟨4 + j.val, hj⟩) (fun a => ?_)).trans ?_
  · match a with
    | ⟨0, _⟩ => show r.val = 0 + r.val; omega
    | ⟨1, _⟩ => show 4 + j.val = 4 + j.val; rfl
  · unfold outArr head
    rw [hidden_eq m c]
    exact lin_congr _ _ _ _ _ _ (ix2 r ⟨4 + j.val, hj⟩) (ix2 r j) (fun k => rfl)
      (fun k => Prefix.headw_right m c k ⟨4 + j.val, hj⟩ j rfl) (Prefix.headb_right m c ⟨4 + j.val, hj⟩ j rfl)

/-- The run, read at the two results and the arguments. -/
theorem run_tail : θ_run defs (onTc (τ := τ) (main (F := Ideal))) ⟨m, fun _ => 0, ρ⟩ fun r => ∀ c : Dev nD,
      r.2.mem ((c.tc : Thread nD τ).loc main_v8) = Pipeline.afterTail₀ cfgs (dats m) 0 (V0 m) [hostOps1] c main_v8
      ∧ r.2.mem ((c.tc : Thread nD τ).loc main_v9) = Pipeline.afterTail₀ cfgs (dats m) 0 (V0 m) [hostOps1] c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).2 main_v8 (Pipeline.mem_restRefs_of main_v8 (by decide) (by decide)),
      (h c).2 main_v9 (Pipeline.mem_restRefs_of main_v9 (by decide) (by decide)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

/-- Every weakly fair execution ends with the two results at the perceptron's two heads of the arguments, and the
    arguments unchanged. -/
theorem run : θ_run defs (onTc (τ := τ) (main (F := Ideal))) ⟨m, fun _ => 0, ρ⟩ fun r => ∀ c : Dev nD,
      r.2.mem ((c.tc : Thread nD τ).loc main_v8) = head (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v9) = head (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans ((logits_tail m c).trans (logits_eq m c)),
      (h c).2.1.trans ((boxes_tail m c).trans (boxes_eq m c)), (h c).2.2⟩) (run_tail m ρ)

end Cert.KernelIdeal.Result

end
-- ==== Proof.Reference.lean ====
/-
  The reference, entry by entry, is the perceptron's two heads.

  Each of its matrix products is the row-by-column sum, each bias is a rank-one array laid along the columns and repeated
  down the rows, and each rectifier is the larger of the entry and the zero word's value; so the classifier's logits and
  the box regressor's output are the two linear heads over the second hidden layer.
-/
import proofs.«145146_g2138893714091_cont_8to1_871_10_alg».proof.Proof.Gen.ReferenceIdeal.Read
import proofs.«145146_g2138893714091_cont_8to1_871_10_alg».proof.Proof.Layers

noncomputable section

namespace Cert.ReferenceIdeal.RefValue

open Cert.ReferenceIdeal Cert.ReferenceIdeal.Read Idealize.ShloMosaic Idealize.ShloMosaic.ValueIdx Cert.Perceptron

/-- The first hidden layer at row `r`, column `j`. -/
theorem hidden1_eq (x0 : S1000x50176.Idx → EReal) (x1 : S50176x1024.Idx → EReal) (x2 : S1024.Idx → EReal)
    (r : Fin 1000) (j : Fin 1024) :
    val_main_v5 (F := Ideal) x0 x1 x2 (ix2 r j) = hid x0 x1 (fun j => x2 (ix1 j)) (ix2 r j) := by
  have el : ∀ k : Fin 50176, lidx_main_v0 (ix2 r j) k = ix2 r k := fun k => funext fun a => Fin.ext (by
    match a with | ⟨0, _⟩ => rfl | ⟨1, _⟩ => rfl)
  have er : ∀ k : Fin 50176, ridx_main_v0 (ix2 r j) k = ix2 k j := fun k => funext fun a => Fin.ext (by
    match a with | ⟨0, _⟩ => rfl | ⟨1, _⟩ => rfl)
  have eb : idx_main_v1 (idx_main_v2 (ix2 r j)) = ix1 j := funext fun a => Fin.ext (by match a with | ⟨0, _⟩ => rfl)
  rw [val_main_v5_apply, val_main_v3_apply, val_main_v0_apply, val_main_v2_apply, val_main_v1_apply, val_main_v4_apply,
    val_main_cst_apply]
  simp only [el, er, eb, Ideal.maximumf_def, Ideal.addf_def, Ideal.ofBits_def]
  rfl

/-- The second hidden layer at row `r`, column `j`. -/
theorem hidden2_eq (x0 : S1000x50176.Idx → EReal) (x1 : S50176x1024.Idx → EReal) (x2 : S1024.Idx → EReal)
    (x3 : S1024x1024.Idx → EReal) (x4 : S1024.Idx → EReal) (r : Fin 1000) (j : Fin 1024) :
    val_main_v11 (F := Ideal) x0 x1 x2 x3 x4 (ix2 r j) = hidden2 x0 x1 x2 x3 x4 (ix2 r j) := by
  have el : ∀ k : Fin 1024, lidx_main_v6 (ix2 r j) k = ix2 r k := fun k => funext fun a => Fin.ext (by
    match a with | ⟨0, _⟩ => rfl | ⟨1, _⟩ => rfl)
  have er : ∀ k : Fin 1024, ridx_main_v6 (ix2 r j) k = ix2 k j := fun k => funext fun a => Fin.ext (by
    match a with | ⟨0, _⟩ => rfl | ⟨1, _⟩ => rfl)
  have eb : idx_main_v7 (idx_main_v8 (ix2 r j)) = ix1 j := funext fun a => Fin.ext (by match a with | ⟨0, _⟩ => rfl)
  rw [val_main_v11_apply, val_main_v9_apply, val_main_v6_apply, val_main_v8_apply, val_main_v7_apply, val_main_v10_apply,
    val_main_cst_0_apply]
  simp only [el, er, eb, Ideal.maximumf_def, Ideal.addf_def, Ideal.ofBits_def]
  rw [Finset.sum_congr rfl fun k _ => congrArg (· * x3 (ix2 k j)) (hidden1_eq x0 x1 x2 r k)]
  rfl

/-- The classifier's logits. -/
theorem logits_eq (x0 : S1000x50176.Idx → EReal) (x1 : S50176x1024.Idx → EReal) (x2 : S1024.Idx → EReal)
    (x3 : S1024x1024.Idx → EReal) (x4 : S1024.Idx → EReal) (x5 : S1024x4.Idx → EReal) (x6 : S4.Idx → EReal) :
    val_main_v15 (F := Ideal) x0 x1 x2 x3 x4 x5 x6 = head x0 x1 x2 x3 x4 x5 x6 := by
  funext i
  obtain ⟨r, j, rfl⟩ : ∃ (r : Fin 1000) (j : Fin 4), i = ix2 r j := ⟨i 0, i 1, eq_ix2 i⟩
  have el : ∀ k : Fin 1024, lidx_main_v12 (ix2 r j) k = ix2 r k := fun k => funext fun a => Fin.ext (by
    match a with | ⟨0, _⟩ => rfl | ⟨1, _⟩ => rfl)
  have er : ∀ k : Fin 1024, ridx_main_v12 (ix2 r j) k = ix2 k j := fun k => funext fun a => Fin.ext (by
    match a with | ⟨0, _⟩ => rfl | ⟨1, _⟩ => rfl)
  have eb : idx_main_v13 (idx_main_v14 (ix2 r j)) = ix1 j := funext fun a => Fin.ext (by match a with | ⟨0, _⟩ => rfl)
  rw [val_main_v15_apply, val_main_v12_apply, val_main_v14_apply, val_main_v13_apply]
  simp only [el, er, eb, Ideal.addf_def]
  rw [Finset.sum_congr rfl fun k _ => congrArg (· * x5 (ix2 k j)) (hidden2_eq x0 x1 x2 x3 x4 r k)]
  rfl

/-- The box regressor's output. -/
theorem boxes_eq (x0 : S1000x50176.Idx → EReal) (x1 : S50176x1024.Idx → EReal) (x2 : S1024.Idx → EReal)
    (x3 : S1024x1024.Idx → EReal) (x4 : S1024.Idx → EReal) (x7 : S1024x12.Idx → EReal) (x8 : S12.Idx → EReal) :
    val_main_v19 (F := Ideal) x0 x1 x2 x3 x4 x7 x8 = head x0 x1 x2 x3 x4 x7 x8 := by
  funext i
  obtain ⟨r, j, rfl⟩ : ∃ (r : Fin 1000) (j : Fin 12), i = ix2 r j := ⟨i 0, i 1, eq_ix2 i⟩
  have el : ∀ k : Fin 1024, lidx_main_v16 (ix2 r j) k = ix2 r k := fun k => funext fun a => Fin.ext (by
    match a with | ⟨0, _⟩ => rfl | ⟨1, _⟩ => rfl)
  have er : ∀ k : Fin 1024, ridx_main_v16 (ix2 r j) k = ix2 k j := fun k => funext fun a => Fin.ext (by
    match a with | ⟨0, _⟩ => rfl | ⟨1, _⟩ => rfl)
  have eb : idx_main_v17 (idx_main_v18 (ix2 r j)) = ix1 j := funext fun a => Fin.ext (by match a with | ⟨0, _⟩ => rfl)
  rw [val_main_v19_apply, val_main_v16_apply, val_main_v18_apply, val_main_v17_apply]
  simp only [el, er, eb, Ideal.addf_def]
  rw [Finset.sum_congr rfl fun k _ => congrArg (· * x7 (ix2 k j)) (hidden2_eq x0 x1 x2 x3 x4 r k)]
  rfl

end Cert.ReferenceIdeal.RefValue

end
-- ==== Proof.lean ====
/-
  The certificate of a fused two-layer perceptron with two linear heads against its plain reference.

  The kernel sweeps the contraction axis of the first, dominant matrix product in 28 chunks of 1792 columns, adding
  each chunk's product into an accumulator; on the last chunk it adds the first bias, rectifies, applies the second
  hidden layer, and applies both heads at once through one weight matrix that holds the classifier's four columns, the
  box regressor's twelve, and zero columns up to 128 lanes; the two results are cut back out of that output. The
  reference computes the same two heads with whole matrix products.

  On the extended reals a finite sum is a sum in a commutative monoid, so the sweep's accumulator after the last chunk
  is the whole row-by-column sum, whatever the entries are; from there on both programs apply the same operations to
  the same rows, columns and bias entries. No finiteness of the inputs is used.

  The frames of the two kernel programs and the reference's run are the generated ones; the idealization rewrote
  nothing.
-/
import proofs.«145146_g2138893714091_cont_8to1_871_10_alg».proof.Defs
import proofs.«145146_g2138893714091_cont_8to1_871_10_alg».proof.Proof.Gen.Kernel
import proofs.«145146_g2138893714091_cont_8to1_871_10_alg».proof.Proof.Gen.Kernel.Skeleton
import proofs.«145146_g2138893714091_cont_8to1_871_10_alg».proof.Proof.Gen.Kernel.Launch
import proofs.«145146_g2138893714091_cont_8to1_871_10_alg».proof.Proof.Gen.Kernel.Points
import proofs.«145146_g2138893714091_cont_8to1_871_10_alg».proof.Proof.Gen.Kernel.Frame
import proofs.«145146_g2138893714091_cont_8to1_871_10_alg».proof.Proof.Gen.KernelIdeal
import proofs.«145146_g2138893714091_cont_8to1_871_10_alg».proof.Proof.Gen.KernelIdeal.Skeleton
import proofs.«145146_g2138893714091_cont_8to1_871_10_alg».proof.Proof.Gen.KernelIdeal.Launch
import proofs.«145146_g2138893714091_cont_8to1_871_10_alg».proof.Proof.Gen.KernelIdeal.Points
import proofs.«145146_g2138893714091_cont_8to1_871_10_alg».proof.Proof.Gen.KernelIdeal.Frame
import proofs.«145146_g2138893714091_cont_8to1_871_10_alg».proof.Proof.Gen.ReferenceIdeal
import proofs.«145146_g2138893714091_cont_8to1_871_10_alg».proof.Proof.Gen.Pre_finite_inputs
import proofs.«145146_g2138893714091_cont_8to1_871_10_alg».proof.Proof.Gen.ReferenceIdeal.Run
import proofs.«145146_g2138893714091_cont_8to1_871_10_alg».proof.Proof.Gen.ReferenceIdeal.Read
import proofs.«145146_g2138893714091_cont_8to1_871_10_alg».proof.Proof.Result
import proofs.«145146_g2138893714091_cont_8to1_871_10_alg».proof.Proof.Reference
import Idealize.ShloMosaic.Adequacy
import Idealize.ShloMosaic.Init

noncomputable section

namespace Cert.Proof

open Idealize.ShloMosaic Idealize.ShloMosaic.TcCoe Idealize.SL.Sem Cert.Perceptron

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the perceptron's two heads of arguments that agree. -/
theorem algebraic : Cert.algebraic_KernelIdeal_ReferenceIdeal := by
  intro m ρ m' ρ' _ hagree
  refine ⟨fun c => head (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => head (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v15_eq, Cert.ReferenceIdeal.RefValue.logits_eq, (hagree c).1, (hagree c).2.1,
      (hagree c).2.2.1, (hagree c).2.2.2.1, (hagree c).2.2.2.2.1, (hagree c).2.2.2.2.2.1, (hagree c).2.2.2.2.2.2.1]
  · rw [Cert.ReferenceIdeal.Read.val_main_v19_eq, Cert.ReferenceIdeal.RefValue.boxes_eq, (hagree c).1, (hagree c).2.1,
      (hagree c).2.2.1, (hagree c).2.2.2.1, (hagree c).2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
